-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x1x128 : Shape := ⟨3, ![4, 1, 128]⟩
abbrev S1x4096x3 : Shape := ⟨3, ![1, 4096, 3]⟩
abbrev S1x1024x3 : Shape := ⟨3, ![1, 1024, 3]⟩
abbrev S1x1x128 : Shape := ⟨3, ![1, 1, 128]⟩
abbrev S1x1 : Shape := ⟨2, ![1, 1]⟩
abbrev S4096x1 : Shape := ⟨2, ![4096, 1]⟩
abbrev S4096x3 : Shape := ⟨2, ![4096, 3]⟩
abbrev S1024x3 : Shape := ⟨2, ![1024, 3]⟩
abbrev S4096 : Shape := ⟨1, ![4096]⟩
abbrev S4096x1024 : Shape := ⟨2, ![4096, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x126 : Shape := ⟨2, ![1, 126]⟩
abbrev S1x128 : Shape := ⟨2, ![1, 128]⟩
abbrev S4x1x1 : Shape := ⟨3, ![4, 1, 1]⟩
abbrev S4 : Shape := ⟨1, ![4]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x1x128, .f32⟩
  | .hbm, ⟨3, _⟩ => ⟨S4x1x1, .f32⟩
  | .hbm, ⟨4, _⟩ => ⟨S4, .f32⟩
  | .hbm, ⟨5, _⟩ => ⟨S4x1x1, .f32⟩
  | .hbm, ⟨6, _⟩ => ⟨S4, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x128, .f32⟩
  | .local _ .vmem, ⟨5, _⟩ => ⟨S1x1x128, .f32⟩
  | .local _ .vmem, ⟨6, _⟩ => ⟨S1x1, .f32⟩
  | .local _ .vmem, ⟨7, _⟩ => ⟨S1x1, .f32⟩
  | .local _ .vmem, ⟨8, _⟩ => ⟨S4096x1, .f32⟩
  | .local _ .vmem, ⟨9, _⟩ => ⟨S4096x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_22 : BitVec 32 := 0#32
  let v39 : BitVec 1 := Scalar.cmpi .ne v38 c0_i32_22
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x3_S4096 : S4096x3.Reduces [1] S4096
  shapeCasts_S4096_S4096x1 : S4096.ShapeCasts S4096x1
  reduces_S1024x3_S1024 : S1024x3.Reduces [1] S1024
  shapeCasts_S1024_S1024x1 : S1024.ShapeCasts S1024x1
  transposes_S1024x1_p1_0_S1x1024 : S1024x1.Transposes [1, 0] S1x1024
  broadcasts_S4096x1_S4096x1024 : S4096x1.Broadcasts S4096x1024
  broadcasts_S1x1024_S4096x1024 : S1x1024.Broadcasts S4096x1024
  reduces_S4096x1024_S1024 : S4096x1024.Reduces [0] S1024
  shapeCasts_S1024_S1x1024 : S1024.ShapeCasts S1x1024
  reduces_S1x1024_S1 : S1x1024.Reduces [1] S1
  shapeCasts_S1_S1x1 : S1.ShapeCasts S1x1
  reduces_S4096x1024_S4096 : S4096x1024.Reduces [1] S4096
  reduces_S4096x1_S1 : S4096x1.Reduces [0] S1
  concatenates_S1x1_S1x1_S1x126_S1x128_d1 : Shape.Concatenates [S1x1, S1x1, S1x126] S1x128 1
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S4x1x128_S4x1x1_0_0_0 : S4x1x128.Slices ![0, 0, 0] S4x1x1
  shapeCasts_S4x1x1_S4 : S4x1x1.ShapeCasts S4
  slices_S4x1x128_S4x1x1_0_0_1 : S4x1x128.Slices ![0, 0, 1] S4x1x1
  reducesTo_S4_S_d0 : S4.ReducesTo [0] S_
  h_S_ : 0 < S_.numel
  dot_S4096x3_S1024x3_S4096x1024_1_1_0_0_n_n_wf : DotDims.WF S4096x3 S1024x3 S4096x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x4096x3.size a
  hwx0_1 : ∀ i : grid0.Coords, EltTy.bits .f32 = 32 ∨ (Rect.block (s := S4x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)

variable [Facts₀]

def dot_S4096x3_S1024x3_S4096x1024_1_1_0_0_n_n : DotDims S4096x3 S1024x3 S4096x1024 where
  lhsContracting := [1]
  rhsContracting := [1]
  lhsNonContracting := [0]
  rhsNonContracting := [0]
  lhsBatch := []
  rhsBatch := []
  wf := dot_S4096x3_S1024x3_S4096x1024_1_1_0_0_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_

variable [Facts₀]

class Facts : Prop extends Facts₀ where

variable [Facts]
-- ==== Proof.Pieces.lean ====
/-
  What one run of the kernel body leaves in each carried scratch buffer and in the output block, as a value:
  the body's arithmetic applied to the two input blocks and to what the scratch buffers held before.
  At the first tile of a batch element (case A) the two sums are reset to zero, the running row minimum to +∞
  and the squared norms of the reconstructed points are stored; the tile's contribution is then accumulated into
  what was just stored. At a middle tile (case B) only the second sum and the row minimum move. At the last tile
  (case C) the row minimum is also summed into the first sum and both sums go to lanes 0 and 1 of the output block.
-/
import proofs.«127155_j6476810682605_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first tile of a batch element -/

theorem sum1_A (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S1x4096x3 .f32) (x1 : Vec F S1x1024x3 .f32) :
    sout0_A_0 c i arg2 harg2 arg3 harg3 arg4 harg4 arg5 harg5 arg6 harg6 arg7 harg7 arg8 harg8 hc0 hc1 x0 x1 = k0_pay5 := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_unit_zero (S := S1x1) hz2]

theorem sum2_A (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S1x4096x3 .f32) (x1 : Vec F S1x1024x3 .f32) :
    sout0_A_1 c i arg2 harg2 arg3 harg3 arg4 harg4 arg5 harg5 arg6 harg6 arg7 harg7 arg8 harg8 hc0 hc1 x0 x1 = k0_pay10 x0 x1 (k0_pay8 x0) k0_pay6 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x1) hz2]
  simp only [View.readAt_eq_ld, harg2.read_unread, harg3.read_unread, harg5.read_unread, harg6.read_unread, harg7.read_unread, harg8.read_unread,
    View.ld_unit_zero (S := S1x4096x3) hz3, View.ld_unit_zero (S := S1x1024x3) hz3, View.ld_unit_zero (S := S4096x1) hz2, View.ld_unit_zero (S := S1x1) hz2,
    View.readCov_unit_zero (S := S4096x1) _ hz2, View.readCov_unit_zero (S := S1x1) _ hz2]

theorem rowmin_A (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S1x4096x3 .f32) (x1 : Vec F S1x1024x3 .f32) :
    sout0_A_2 c i arg2 harg2 arg3 harg3 arg4 harg4 arg5 harg5 arg6 harg6 arg7 harg7 arg8 harg8 hc0 hc1 x0 x1 = k0_pay1 (k0_pay11 x0 x1 (k0_pay8 x0)) k0_pay7 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S4096x1) hz2]
  simp only [View.readAt_eq_ld, harg2.read_unread, harg3.read_unread, harg5.read_unread, harg6.read_unread, harg7.read_unread, harg8.read_unread,
    View.ld_unit_zero (S := S1x4096x3) hz3, View.ld_unit_zero (S := S1x1024x3) hz3, View.ld_unit_zero (S := S4096x1) hz2, View.ld_unit_zero (S := S1x1) hz2,
    View.readCov_unit_zero (S := S4096x1) _ hz2, View.readCov_unit_zero (S := S1x1) _ hz2]

theorem rsq_A (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S4096x1 .f32) (harg7 : arg7.IsWhole) (arg8 : Memref sig .tc .vmem S4096x1 .f32) (harg8 : arg8.IsWhole) (hc0 : cond0_0 i) (hc1 : ¬cond0_1 i)
    (x0 : Vec F S1x4096x3 .f32) (x1 : Vec F S1x1024x3 .f32) :
    sout0_A_3 c i arg2 harg2 arg3 harg3 arg4 harg4 arg5 harg5 arg6 harg6 arg7 harg7 arg8 harg8 hc0 hc1 x0 x1 = k0_pay8 x0 := by
  unfold sout0_A_3
  rw [View.read_writes_eq_canon _ _ _ (scover0_A_3 c i arg2 harg2 arg3 harg3 arg4 harg4 arg5 harg5 arg6 harg6 arg7 harg7 arg8 harg8 hc0 hc1 x0 x1)]
  unfold kernelRun0_A
  dsimp only
  sl_unfold_words
  rw [View.canon_unit_zero (S := S4096x1) hz2]
  simp only [View.readAt_eq_ld, harg2.read_unread, harg3.read_unread, harg5.read_unread, harg6.read_unread, harg7.read_unread, harg8.read_unread,
    View.ld_unit_zero (S := S1x4096x3) hz3, View.ld_unit_zero (S := S1x1024x3) hz3, View.ld_unit_zero (S := S4096x1) hz2, View.ld_unit_zero (S := S1x1) hz2,
    View.readCov_unit_zero (S := S4096x1) _ hz2, View.readCov_unit_zero (S := S1x1) _ hz2]

/-! ## A middle tile -/

theorem sum2_B (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S1x4096x3 .f32) (x1 : Vec F S1x1024x3 .f32) (xs0 : Vec F S1x1 .f32) (xs1 : Vec F S1x1 .f32) (xs2 : Vec F S4096x1 .f32) (xs3 : Vec F S4096x1 .f32) :
    sout0_B_1 c i arg2 harg2 arg3 harg3 arg4 harg4 arg5 harg5 arg6 harg6 arg7 harg7 arg8 harg8 hc0 hc1 x0 x1 xs0 xs1 xs2 xs3 = k0_pay10 x0 x1 xs3 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero (S := S1x1) hz2]
  simp only [View.readAt_eq_ld, harg2.read_unread, harg3.read_unread, harg5.read_unread, harg6.read_unread, harg7.read_unread, harg8.read_unread,
    View.ld_unit_zero (S := S1x4096x3) hz3, View.ld_unit_zero (S := S1x1024x3) hz3, View.ld_unit_zero (S := S4096x1) hz2, View.ld_unit_zero (S := S1x1) hz2,
    View.readCov_unit_zero (S := S4096x1) _ hz2, View.readCov_unit_zero (S := S1x1) _ hz2]

theorem rowmin_B (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : ¬cond0_1 i)
    (x0 : Vec F S1x4096x3 .f32) (x1 : Vec F S1x1024x3 .f32) (xs0 : Vec F S1x1 .f32) (xs1 : Vec F S1x1 .f32) (xs2 : Vec F S4096x1 .f32) (xs3 : Vec F S4096x1 .f32) :
    sout0_B_2 c i arg2 harg2 arg3 harg3 arg4 harg4 arg5 harg5 arg6 harg6 arg7 harg7 arg8 harg8 hc0 hc1 x0 x1 xs0 xs1 xs2 xs3 = k0_pay1 (k0_pay11 x0 x1 xs3) xs2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero (S := S4096x1) hz2]
  simp only [View.readAt_eq_ld, harg2.read_unread, harg3.read_unread, harg5.read_unread, harg6.read_unread, harg7.read_unread, harg8.read_unread,
    View.ld_unit_zero (S := S1x4096x3) hz3, View.ld_unit_zero (S := S1x1024x3) hz3, View.ld_unit_zero (S := S4096x1) hz2, View.ld_unit_zero (S := S1x1) hz2,
    View.readCov_unit_zero (S := S4096x1) _ hz2, View.readCov_unit_zero (S := S1x1) _ hz2]

/-! ## The last tile -/

theorem sum2_C (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S1x4096x3 .f32) (x1 : Vec F S1x1024x3 .f32) (xs0 : Vec F S1x1 .f32) (xs1 : Vec F S1x1 .f32) (xs2 : Vec F S4096x1 .f32) (xs3 : Vec F S4096x1 .f32) :
    sout0_C_1 c i arg2 harg2 arg3 harg3 arg4 harg4 arg5 harg5 arg6 harg6 arg7 harg7 arg8 harg8 hc0 hc1 x0 x1 xs0 xs1 xs2 xs3 = k0_pay10 x0 x1 xs3 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S1x1) hz2]
  simp only [View.readAt_eq_ld, harg2.read_unread, harg3.read_unread, harg5.read_unread, harg6.read_unread, harg7.read_unread, harg8.read_unread,
    View.ld_unit_zero (S := S1x4096x3) hz3, View.ld_unit_zero (S := S1x1024x3) hz3, View.ld_unit_zero (S := S4096x1) hz2, View.ld_unit_zero (S := S1x1) hz2,
    View.readCov_unit_zero (S := S4096x1) _ hz2, View.readCov_unit_zero (S := S1x1) _ hz2]

theorem rowmin_C (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S1x4096x3 .f32) (x1 : Vec F S1x1024x3 .f32) (xs0 : Vec F S1x1 .f32) (xs1 : Vec F S1x1 .f32) (xs2 : Vec F S4096x1 .f32) (xs3 : Vec F S4096x1 .f32) :
    sout0_C_2 c i arg2 harg2 arg3 harg3 arg4 harg4 arg5 harg5 arg6 harg6 arg7 harg7 arg8 harg8 hc0 hc1 x0 x1 xs0 xs1 xs2 xs3 = k0_pay1 (k0_pay11 x0 x1 xs3) xs2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S4096x1) hz2]
  simp only [View.readAt_eq_ld, harg2.read_unread, harg3.read_unread, harg5.read_unread, harg6.read_unread, harg7.read_unread, harg8.read_unread,
    View.ld_unit_zero (S := S1x4096x3) hz3, View.ld_unit_zero (S := S1x1024x3) hz3, View.ld_unit_zero (S := S4096x1) hz2, View.ld_unit_zero (S := S1x1) hz2,
    View.readCov_unit_zero (S := S4096x1) _ hz2, View.readCov_unit_zero (S := S1x1) _ hz2]

theorem sum1_C (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S1x4096x3 .f32) (x1 : Vec F S1x1024x3 .f32) (xs0 : Vec F S1x1 .f32) (xs1 : Vec F S1x1 .f32) (xs2 : Vec F S4096x1 .f32) (xs3 : Vec F S4096x1 .f32) :
    sout0_C_0 c i arg2 harg2 arg3 harg3 arg4 harg4 arg5 harg5 arg6 harg6 arg7 harg7 arg8 harg8 hc0 hc1 x0 x1 xs0 xs1 xs2 xs3 = k0_pay2 xs0 (k0_pay1 (k0_pay11 x0 x1 xs3) xs2) := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S1x1) hz2]
  simp only [View.readAt_eq_ld, harg2.read_unread, harg3.read_unread, harg5.read_unread, harg6.read_unread, harg7.read_unread, harg8.read_unread,
    View.ld_unit_zero (S := S1x4096x3) hz3, View.ld_unit_zero (S := S1x1024x3) hz3, View.ld_unit_zero (S := S4096x1) hz2, View.ld_unit_zero (S := S1x1) hz2,
    View.readCov_unit_zero (S := S4096x1) _ hz2, View.readCov_unit_zero (S := S1x1) _ hz2]

theorem out_C (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S4096x1 .f32) (harg7 : arg7.IsWhole) (arg8 : Memref sig .tc .vmem S4096x1 .f32) (harg8 : arg8.IsWhole) (hc0 : ¬cond0_0 i) (hc1 : cond0_1 i)
    (x0 : Vec F S1x4096x3 .f32) (x1 : Vec F S1x1024x3 .f32) (xs0 : Vec F S1x1 .f32) (xs1 : Vec F S1x1 .f32) (xs2 : Vec F S4096x1 .f32) (xs3 : Vec F S4096x1 .f32) :
    out0_C_2 c i arg2 harg2 arg3 harg3 arg4 harg4 arg5 harg5 arg6 harg6 arg7 harg7 arg8 harg8 hc0 hc1 x0 x1 xs0 xs1 xs2 xs3 = k0_pay3 (k0_pay2 xs0 (k0_pay1 (k0_pay11 x0 x1 xs3) xs2)) (k0_pay10 x0 x1 xs3 xs1) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero (S := S1x1x128) hz3]
  simp only [View.readAt_eq_ld, harg2.read_unread, harg3.read_unread, harg5.read_unread, harg6.read_unread, harg7.read_unread, harg8.read_unread,
    View.ld_unit_zero (S := S1x4096x3) hz3, View.ld_unit_zero (S := S1x1024x3) hz3, View.ld_unit_zero (S := S4096x1) hz2, View.ld_unit_zero (S := S1x1) hz2,
    View.readCov_unit_zero (S := S4096x1) _ hz2, View.readCov_unit_zero (S := S1x1) _ hz2]

end Cert.KernelIdeal.Pieces

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibRowReduce.lean ====
/-
  A matrix reduced along its rows, read at a row, at the ideal values: the lane sum of `[a, b]` at row `r` is the sum
  over `c` of the entries `(r, c)`, and the lane maximum is the fold of `max`, from the value the accumulator's word
  denotes, over the same entries. The reduced index with the coordinate `c` put back on the dropped axis is `(r, c)`.
-/
import Idealize.ShloMosaic.Lib.ValueIdx
import Idealize.ShloMosaic.PureOps.Ideal.Laws

noncomputable section

namespace Cert.LibRowReduce

open Idealize.ShloMosaic Idealize.ShloMosaic.ValueIdx

/-- Row `r` of `[a, b]` with the column `c` put back is the entry `(r, c)`. -/
theorem lift_row {a b : ℕ} (h : (⟨2, ![a, b]⟩ : Shape).Reduces [1] ⟨1, ![a]⟩) (r : Fin a) (c : Fin b) :
    h.lift (ix1 r) c = ix2 r c := by
  funext d
  apply Fin.ext
  match d with
  | ⟨0, _⟩ => rfl
  | ⟨1, _⟩ => rfl

/-- The lane sum of a matrix at row `r` is the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src (lift_row h r c))

/-- The lane maximum of a matrix at row `r` is the fold of `max` over the row's entries, from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (congrArg ((Finset.univ : Finset (Fin b)).fold max (Ideal.ofBits φ acc)) (funext fun c => congrArg src (lift_row h r c)))

end Cert.LibRowReduce

end
-- ==== Proof.LibMinReduce.lean ====
/-
  A matrix reduced by a minimum along its rows or along its columns, and summed along its columns, read at the
  reduced index, at the ideal values: the lane minimum of `[a, b]` at row `r` is the fold of `min`, from the value
  the accumulator's word denotes, over the entries `(r, c)` of the row; the sublane minimum at column `c` the same
  fold over the entries `(r, c)` of the column; the sublane sum at column `c` the sum of the column's entries.
  A minimum folded from `⊤` is the infimum. (The lane sum and the row's lifted index are the row-reduction module's.)
-/
import proofs.«127155_j6476810682605_2_alg».proof.Proof.LibRowReduce
import Idealize.ShloMosaic.Lib.ValueIdx
import Idealize.ShloMosaic.PureOps.Ideal.Laws

noncomputable section

namespace Cert.LibMinReduce

open Idealize.ShloMosaic Idealize.ShloMosaic.ValueIdx

/-- Column `c` of `[a, b]` with the row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d
  apply Fin.ext
  match d with
  | ⟨0, _⟩ => rfl
  | ⟨1, _⟩ => rfl

/-- A minimum reduction over one axis, at the ideal values: the fold of `min` from the accumulator's value over that
    axis's coordinates. -/
theorem multiReduction_minimumf_single {s t : Shape} {φ : FTy} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- The lane minimum of a matrix at row `r`: the fold of `min` over the row's entries. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun c => src (ix2 r c)) :=
  (multiReduction_minimumf_single src acc h hφ hacc (ix1 r)).trans
    (congrArg ((Finset.univ : Finset (Fin b)).fold min (Ideal.ofBits φ acc)) (funext fun c => congrArg src (Cert.LibRowReduce.lift_row h r c)))

/-- The sublane minimum of a matrix at column `c`: the fold of `min` over the column's entries. -/
theorem colMin_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (c : Fin b) :
    multiReduction .minimumf [0] ⟨1, ![b]⟩ src acc h hφ hacc (ix1 c)
      = (Finset.univ : Finset (Fin a)).fold min (Ideal.ofBits φ acc) (fun r => src (ix2 r c)) :=
  (multiReduction_minimumf_single src acc h hφ hacc (ix1 c)).trans
    (congrArg ((Finset.univ : Finset (Fin a)).fold min (Ideal.ofBits φ acc)) (funext fun r => congrArg src (lift_col h c r)))

/-- The sublane sum of a matrix at column `c`: the sum of the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

/-- A minimum folded from the top element is the infimum. -/
theorem fold_min_top {ι : Type} (s : Finset ι) (f : ι → EReal) : s.fold min (⊤ : EReal) f = s.inf f := rfl

end Cert.LibMinReduce

end
-- ==== Proof.Algebra.lean ====
/-
  Three facts of extended-real arithmetic behind the tiled computation of the chamfer loss.
  The 4096 target points are visited in four tiles of 1024; `below a` is the set of points of the tiles
  before tile `a`. An infimum (a sum) over the points below tile `a + 1` is the infimum (the sum) over the
  points below tile `a` joined with the infimum (the sum) over tile `a`. And for REAL coordinates the squared
  distance expanded as |r|² − 2 r·g + |g|², clamped at zero, is the sum of the squared differences.
-/
import Idealize.ShloMosaic.PureOps.Ideal

noncomputable section

namespace Cert.Chamfer

/-- The points of the tiles before tile `a`: those of index below `1024 · a`. -/
def below (a : ℕ) : Finset (Fin 4096) := Finset.univ.filter fun m => m.val < 1024 * a

theorem below_zero : below 0 = ∅ := by
  ext m
  simp [below]

theorem below_four : below 4 = Finset.univ := by
  ext m
  simp only [below, Finset.mem_filter, Finset.mem_univ, true_and, iff_true]
  have := m.isLt
  omega

/-- Point `j` of tile `a`. -/
def tileIdx (a : ℕ) (ha : a < 4) (j : Fin 1024) : Fin 4096 := ⟨1024 * a + j.val, by omega⟩

theorem tileIdx_injective (a : ℕ) (ha : a < 4) : Function.Injective (tileIdx a ha) := by
  intro i j h
  have h' : 1024 * a + i.val = 1024 * a + j.val := congrArg Fin.val h
  exact Fin.ext (by omega)

/-- The points below tile `a + 1` are the points below tile `a` together with the points of tile `a`. -/
theorem below_succ (a : ℕ) (ha : a < 4) :
    below (a + 1) = below a ∪ Finset.univ.image (tileIdx a ha) := by
  ext m
  simp only [below, Finset.mem_filter, Finset.mem_univ, true_and, Finset.mem_union, Finset.mem_image]
  constructor
  · intro h
    by_cases hlt : m.val < 1024 * a
    · exact Or.inl hlt
    · refine Or.inr ⟨⟨m.val - 1024 * a, by omega⟩, ?_⟩
      apply Fin.ext
      show 1024 * a + (m.val - 1024 * a) = m.val
      omega
  · rintro (h | ⟨j, rfl⟩)
    · omega
    · show 1024 * a + j.val < 1024 * (a + 1)
      have := j.isLt
      omega

/-- No point of tile `a` lies below tile `a`. -/
theorem below_disjoint (a : ℕ) (ha : a < 4) :
    Disjoint (below a) (Finset.univ.image (tileIdx a ha)) := by
  rw [Finset.disjoint_left]
  intro m hm hm'
  simp only [below, Finset.mem_filter, Finset.mem_univ, true_and] at hm
  obtain ⟨j, _, rfl⟩ := Finset.mem_image.mp hm'
  have : 1024 * a + j.val < 1024 * a := hm
  omega

/-- The infimum over the points below tile `a + 1`: the one below tile `a`, met with tile `a`'s. -/
theorem inf_below_succ (f : Fin 4096 → EReal) (a : ℕ) (ha : a < 4) :
    min ((below a).inf f) ((Finset.univ : Finset (Fin 1024)).inf fun j => f (tileIdx a ha j))
      = (below (a + 1)).inf f := by
  rw [below_succ a ha, Finset.inf_union, Finset.inf_image]
  rfl

/-- The sum over the points below tile `a + 1`: the one below tile `a`, plus tile `a`'s. -/
theorem sum_below_succ (f : Fin 4096 → EReal) (a : ℕ) (ha : a < 4) :
    (∑ m ∈ below a, f m) + ∑ j : Fin 1024, f (tileIdx a ha j) = ∑ m ∈ below (a + 1), f m := by
  rw [below_succ a ha, Finset.sum_union (below_disjoint a ha),
    Finset.sum_image (fun i _ j _ h => tileIdx_injective a ha h)]

/-- For real coordinates: |r|² − 2 r·g + |g|² is the sum of the squared differences, which is not negative,
    so clamping it at zero changes nothing. -/
theorem sqd_expand (r g : Fin 3 → ℝ) :
    max ((∑ d, ((r d : ℝ) : EReal) * ((r d : ℝ) : EReal))
          - ((2 : ℝ) : EReal) * (∑ d, ((r d : ℝ) : EReal) * ((g d : ℝ) : EReal))
          + ∑ d, ((g d : ℝ) : EReal) * ((g d : ℝ) : EReal)) 0
      = ∑ d, (((r d : ℝ) : EReal) - ((g d : ℝ) : EReal)) * (((r d : ℝ) : EReal) - ((g d : ℝ) : EReal)) := by
  simp only [Fin.sum_univ_three]
  simp only [← EReal.coe_mul, ← EReal.coe_add, ← EReal.coe_sub]
  have hreal : r 0 * r 0 + r 1 * r 1 + r 2 * r 2 - 2 * (r 0 * g 0 + r 1 * g 1 + r 2 * g 2)
        + (g 0 * g 0 + g 1 * g 1 + g 2 * g 2)
      = (r 0 - g 0) * (r 0 - g 0) + (r 1 - g 1) * (r 1 - g 1) + (r 2 - g 2) * (r 2 - g 2) := by ring
  rw [hreal]
  apply max_eq_left
  rw [← EReal.coe_zero, EReal.coe_le_coe_iff]
  have h0 := mul_self_nonneg (r 0 - g 0)
  have h1 := mul_self_nonneg (r 1 - g 1)
  have h2 := mul_self_nonneg (r 2 - g 2)
  linarith

/-- The words of the three float constants the kernel body uses, as extended reals. -/
theorem ofBits_two : Idealize.ShloMosaic.Ideal.ofBits .f32 0x40000000#32 = ((2 : ℝ) : EReal) := by
  simp [Idealize.ShloMosaic.Ideal.ofBits, Idealize.ShloMosaic.Ideal.ieee, -EReal.coe_mul]
  norm_num

theorem ofBits_inf : Idealize.ShloMosaic.Ideal.ofBits .f32 0x7F800000#32 = (⊤ : EReal) := by
  simp [Idealize.ShloMosaic.Ideal.ofBits, Idealize.ShloMosaic.Ideal.ieee]

end Cert.Chamfer

end
-- ==== Proof.PayIdx.lean ====
/-
  The arithmetic of one run of the kernel body, read entry by entry at the ideal values (extended reals).
  With `x0` the block of 4096 reconstructed points, `x1` the tile of 1024 target points and `v8` the column of the
  reconstructed points' squared norms: the clamped expanded squared distance of every pair of the tile, its minimum
  along each row (nearest target of the tile) and along each column (nearest reconstructed point), the column
  minima summed into the running second sum, the row minima met with the running row minimum, the running row
  minimum summed into the first sum, and the two sums laid in lanes 0 and 1 of the output row.
-/
import proofs.«127155_j6476810682605_2_alg».proof.Proof.Gen.KernelIdeal.Skeleton
import proofs.«127155_j6476810682605_2_alg».proof.Proof.LibKeepdims
import proofs.«127155_j6476810682605_2_alg».proof.Proof.LibRowReduce
import proofs.«127155_j6476810682605_2_alg».proof.Proof.LibMinReduce
import proofs.«127155_j6476810682605_2_alg».proof.Proof.Algebra
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.PayIdx

open Cert.KernelIdeal Cert.KernelIdeal.Gen Idealize.ShloMosaic Idealize.ShloMosaic.ValueIdx

/-- The reset value of the first sum is zero. -/
theorem pay5_apply (j : S1x1.Idx) : k0_pay5 (F := Ideal) j = 0 := by
  unfold k0_pay5
  exact (congrFun (shapeCast_self _ _) j).trans Ideal.ofBits_zero_f32

/-- The reset value of the second sum is zero. -/
theorem pay6_apply (j : S1x1.Idx) : k0_pay6 (F := Ideal) j = 0 := by
  unfold k0_pay6
  exact (congrFun (shapeCast_self _ _) j).trans Ideal.ofBits_zero_f32

/-- The reset value of the running row minimum is +∞. -/
theorem pay7_apply (j : S4096x1.Idx) : k0_pay7 (F := Ideal) j = ⊤ := by
  unfold k0_pay7
  exact (congrFun (shapeCast_self _ _) j).trans Cert.Chamfer.ofBits_inf

/-- The squared norm of reconstructed point `i`: the sum of its squared coordinates. -/
theorem pay8_apply (x0 : Vec Ideal S1x4096x3 .f32) (i : Fin 4096) (u : Fin 1) :
    k0_pay8 x0 (ix2 i u) = ∑ d : Fin 3, x0 (ix3 (0 : Fin 1) i d) * x0 (ix3 (0 : Fin 1) i d) := by
  unfold k0_pay8
  -- the identity recast, the vector kept as a column, the lane sum at row `i`
  refine (congrFun (shapeCast_self _ _) (ix2 i u)).trans ?_
  refine (Cert.LibKeepdims.shapeCast_a_a1_apply _ _ i u).trans ?_
  refine (Cert.LibRowReduce.rowSum_apply _ _ _ _ _ i).trans ?_
  refine Finset.sum_congr rfl fun d _ => ?_
  -- entry `(i, d)` of the block with its unit axis dropped is entry `(0, i, d)`
  have e : k0_pay4 x0 (ix2 i d) = x0 (ix3 (0 : Fin 1) i d) := by
    unfold k0_pay4
    exact shapeCast_1ab_ab_apply _ _ i d
  show k0_pay4 x0 (ix2 i d) * k0_pay4 x0 (ix2 i d) = _
  rw [e]

/-- The running row minimum after the tile: what it held, met with the tile's row minimum. -/
theorem pay1_apply (v31 : FVec Ideal S4096x1 .f32) (v32 : Vec Ideal S4096x1 .f32) (j : S4096x1.Idx) :
    k0_pay1 v31 v32 j = min (v32 j) (v31 j) := by
  unfold k0_pay1
  exact congrFun (shapeCast_self _ _) j

/-- The first sum after the last tile: what it held plus the sum of the running row minimum. -/
theorem pay2_apply (v40 : Vec Ideal S1x1 .f32) (v41 : Vec Ideal S4096x1 .f32) (u v : Fin 1) :
    k0_pay2 v40 v41 (ix2 u v) = v40 (ix2 u v) + ∑ i : Fin 4096, v41 (ix2 i (0 : Fin 1)) := by
  obtain rfl : v = 0 := Subsingleton.elim _ _
  unfold k0_pay2
  refine (congrFun (shapeCast_self _ _) (ix2 u (0 : Fin 1))).trans ?_
  show v40 (ix2 u (0 : Fin 1)) + _ = _
  refine congrArg (v40 (ix2 u (0 : Fin 1)) + ·) ?_
  -- the one-entry vector recast `[1, 1]`, then the sublane sum at column 0
  refine (shapeCast_a_1a_apply _ _ u (0 : Fin 1)).trans ?_
  exact Cert.LibMinReduce.colSum_apply _ _ _ _ _ (0 : Fin 1)

/-- The output row: the first sum in lane 0, the second in lane 1, zero in the other 126 lanes. -/
theorem pay3_apply (v49 v50 : Vec Ideal S1x1 .f32) (u v : Fin 1) (l : Fin 128) :
    k0_pay3 v49 v50 (ix3 u v l)
      = if l.val = 0 then v49 (ix2 (0 : Fin 1) (0 : Fin 1)) else if l.val = 1 then v50 (ix2 (0 : Fin 1) (0 : Fin 1)) else 0 := by
  obtain rfl : u = 0 := Subsingleton.elim _ _
  obtain rfl : v = 0 := Subsingleton.elim _ _
  unfold k0_pay3
  -- the row `[1, 128]` recast `[1, 1, 128]`
  refine (shapeCast_ab_1ab_apply _ _ (0 : Fin 1) (0 : Fin 1) l).trans ?_
  have hl := l.isLt
  by_cases h0 : l.val = 0
  · -- lane 0: the first piece
    rw [if_pos h0]
    refine concatenate_apply_piece (t := S1x128) (1 : Fin 2) _ _ (ix2 (0 : Fin 1) l) 0 ?_ S1x1 v49 ?_ rfl 0 ?_
      (ix2 (0 : Fin 1) (0 : Fin 1)) (fun b hb => ?_) ?_
    · exact Nat.zero_lt_succ 2
    · rfl
    · rfl
    · match b with
      | ⟨0, _⟩ => rfl
      | ⟨1, _⟩ => exact absurd rfl hb
    · show 0 + 0 = l.val
      omega
  · rw [if_neg h0]
    by_cases h1 : l.val = 1
    · -- lane 1: the second piece
      rw [if_pos h1]
      refine concatenate_apply_piece (t := S1x128) (1 : Fin 2) _ _ (ix2 (0 : Fin 1) l) 1 ?_ S1x1 v50 ?_ rfl 1 ?_
        (ix2 (0 : Fin 1) (0 : Fin 1)) (fun b hb => ?_) ?_
      · exact Nat.succ_lt_succ (Nat.zero_lt_succ 1)
      · rfl
      · rfl
      · match b with
        | ⟨0, _⟩ => rfl
        | ⟨1, _⟩ => exact absurd rfl hb
      · show 1 + 0 = l.val
        omega
    · -- lanes 2 to 127: the zero piece
      rw [if_neg h1]
      refine (concatenate_apply_piece (t := S1x128) (1 : Fin 2) _ _ (ix2 (0 : Fin 1) l) 2 ?_ S1x126
        (broadcast S1x126 (Scalar.ofBits (F := Ideal) .f32 0x00000000#32)) ?_ rfl 2 ?_
        (ix2 (0 : Fin 1) (⟨l.val - 2, by omega⟩ : Fin 126)) (fun b hb => ?_) ?_).trans ?_
      · exact Nat.lt_succ_self 2
      · rfl
      · rfl
      · match b with
        | ⟨0, _⟩ => rfl
        | ⟨1, _⟩ => exact absurd rfl hb
      · show 2 + (l.val - 2) = l.val
        omega
      · exact Ideal.ofBits_zero_f32

end Cert.KernelIdeal.PayIdx

end
-- ==== Proof.PayDist.lean ====
/-
  The pairwise part of one run of the kernel body, read entry by entry at the ideal values (extended reals).
  With `x0` the block of 4096 reconstructed points, `x1` the tile of 1024 target points and `v8` the column of the
  reconstructed points' squared norms: the clamped expanded squared distance |r|² − 2 r·g + |g|² of every pair of
  the tile (the product r·g a matrix product contracted over the three coordinates), its infimum along each row
  (the nearest target of the tile) and the infima along the columns (the nearest reconstructed points) summed into
  the running second sum.
-/
import proofs.«127155_j6476810682605_2_alg».proof.Proof.Gen.KernelIdeal.Skeleton
import proofs.«127155_j6476810682605_2_alg».proof.Proof.LibKeepdims
import proofs.«127155_j6476810682605_2_alg».proof.Proof.LibRowReduce
import proofs.«127155_j6476810682605_2_alg».proof.Proof.LibMinReduce
import proofs.«127155_j6476810682605_2_alg».proof.Proof.Algebra
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.PayIdx

open Cert.KernelIdeal Cert.KernelIdeal.Gen Idealize.ShloMosaic Idealize.ShloMosaic.ValueIdx

/-- A matrix product contracting the second axis of both operands, into a zero accumulator: the entry `(i, j)` is
    the sum over the three coordinates of row `i` of the left operand times row `j` of the right operand. -/
theorem rows_dot (A : FVec Ideal S4096x3 .f32) (B : FVec Ideal S1024x3 .f32) (i : Fin 4096) (j : Fin 1024) :
    matmul dot_S4096x3_S1024x3_S4096x1024_1_1_0_0_n_n (some .fp32) A B (constant (F := Ideal) S4096x1024 .f32 0x00000000#32) (ix2 i j)
      = ∑ d : Fin 3, A (ix2 i d) * B (ix2 j d) := by
  refine (Ideal.matmul_constant_zero_apply _ _ A B (ix2 i j)).trans ?_
  rw [← Equiv.sum_comp (contrEquiv1 dot_S4096x3_S1024x3_S4096x1024_1_1_0_0_n_n 3 rfl rfl).symm]
  refine Finset.sum_congr rfl fun c _ => ?_
  have c2 := contrEquiv1_symm_val dot_S4096x3_S1024x3_S4096x1024_1_1_0_0_n_n 3 rfl rfl c
  have l2 : (dot_S4096x3_S1024x3_S4096x1024_1_1_0_0_n_n).lhsIdx (ix2 i j) ((contrEquiv1 _ 3 rfl rfl).symm c) = ix2 i c := by
    funext ax; apply Fin.ext
    match ax with
    | ⟨0, _⟩ => simp [DotDims.lhsIdx, dot_S4096x3_S1024x3_S4096x1024_1_1_0_0_n_n]; rfl
    | ⟨1, _⟩ => simp [DotDims.lhsIdx, dot_S4096x3_S1024x3_S4096x1024_1_1_0_0_n_n]; exact c2
  have r2 : (dot_S4096x3_S1024x3_S4096x1024_1_1_0_0_n_n).rhsIdx (ix2 i j) ((contrEquiv1 _ 3 rfl rfl).symm c) = ix2 j c := by
    funext ax; apply Fin.ext
    match ax with
    | ⟨0, _⟩ => simp [DotDims.rhsIdx, dot_S4096x3_S1024x3_S4096x1024_1_1_0_0_n_n]; rfl
    | ⟨1, _⟩ => simp [DotDims.rhsIdx, dot_S4096x3_S1024x3_S4096x1024_1_1_0_0_n_n]; exact c2
  rw [l2, r2]

/-- The clamped expanded squared distance between reconstructed point `i` and target point `j` of the tile:
    |r|² (read from the column `v8`) − 2 r·g + |g|², clamped at zero. -/
theorem pay9_apply (x0 : Vec Ideal S1x4096x3 .f32) (x1 : Vec Ideal S1x1024x3 .f32) (v8 : Vec Ideal S4096x1 .f32)
    (i : Fin 4096) (j : Fin 1024) :
    k0_pay9 x0 x1 v8 (ix2 i j)
      = max (v8 (ix2 i (0 : Fin 1))
            - ((2 : ℝ) : EReal) * (∑ d : Fin 3, x0 (ix3 (0 : Fin 1) i d) * x1 (ix3 (0 : Fin 1) j d))
            + ∑ d : Fin 3, x1 (ix3 (0 : Fin 1) j d) * x1 (ix3 (0 : Fin 1) j d)) 0 := by
  -- the two blocks without their unit batch axis
  have hA : ∀ d : Fin 3, k0_pay4 x0 (ix2 i d) = x0 (ix3 (0 : Fin 1) i d) := fun d =>
    shapeCast_1ab_ab_apply x0 shapeCasts_S1x4096x3_S4096x3 i d
  have hB : ∀ d : Fin 3, shapeCast S1024x3 x1 shapeCasts_S1x1024x3_S1024x3 (ix2 j d) = x1 (ix3 (0 : Fin 1) j d) := fun d =>
    shapeCast_1ab_ab_apply x1 shapeCasts_S1x1024x3_S1024x3 j d
  -- the product r·g
  have hdot : matmul dot_S4096x3_S1024x3_S4096x1024_1_1_0_0_n_n (some .fp32) (k0_pay4 x0) (shapeCast S1024x3 x1 shapeCasts_S1x1024x3_S1024x3)
        (constant (F := Ideal) S4096x1024 .f32 0x00000000#32) (ix2 i j)
      = ∑ d : Fin 3, x0 (ix3 (0 : Fin 1) i d) * x1 (ix3 (0 : Fin 1) j d) :=
    (rows_dot _ _ i j).trans (Finset.sum_congr rfl fun d _ => by rw [hA, hB])
  -- the squared norm |g|², a row sum kept as a column, transposed to a row and broadcast down the rows
  have hnorm : broadcastTo S4096x1024 (transpose S1x1024 [1, 0] (shapeCast S1024x1
        (multiReduction (F := Ideal) .add [1] S1024 (mulf (shapeCast S1024x3 x1 shapeCasts_S1x1024x3_S1024x3) (shapeCast S1024x3 x1 shapeCasts_S1x1024x3_S1024x3)) 0x00000000#32 reduces_S1024x3_S1024 (.inl rfl) rfl)
        shapeCasts_S1024_S1024x1) transposes_S1024x1_p1_0_S1x1024) broadcasts_S1x1024_S4096x1024 (ix2 i j)
      = ∑ d : Fin 3, x1 (ix3 (0 : Fin 1) j d) * x1 (ix3 (0 : Fin 1) j d) := by
    refine (broadcastTo_1b_ab_apply _ _ i j).trans ?_
    refine (transpose_ix2_apply _ _ (0 : Fin 1) j).trans ?_
    refine (Cert.LibKeepdims.shapeCast_a_a1_apply _ _ j (0 : Fin 1)).trans ?_
    refine (Cert.LibRowReduce.rowSum_apply _ _ _ _ _ j).trans ?_
    exact Finset.sum_congr rfl fun d _ => by
      show shapeCast S1024x3 x1 shapeCasts_S1x1024x3_S1024x3 (ix2 j d) * shapeCast S1024x3 x1 shapeCasts_S1x1024x3_S1024x3 (ix2 j d) = _
      rw [hB]
  -- the column of squared norms |r|² broadcast along the rows
  have hv8 : broadcastTo S4096x1024 v8 broadcasts_S4096x1_S4096x1024 (ix2 i j) = v8 (ix2 i (0 : Fin 1)) :=
    Cert.LibKeepdims.broadcastTo_a1_ab_apply v8 _ i j
  unfold k0_pay9
  show max (_ - _ * _ + _) _ = _
  rw [hv8, hdot, hnorm]
  show max (_ - Ideal.ofBits .f32 0x40000000#32 * _ + _) (Ideal.ofBits .f32 0x00000000#32) = _
  rw [Cert.Chamfer.ofBits_two, Ideal.ofBits_zero_f32]

/-- The nearest target point of the tile for reconstructed point `i`: the infimum along row `i`. -/
theorem pay11_apply (x0 : Vec Ideal S1x4096x3 .f32) (x1 : Vec Ideal S1x1024x3 .f32) (v8 : Vec Ideal S4096x1 .f32)
    (i : Fin 4096) (u : Fin 1) :
    k0_pay11 x0 x1 v8 (ix2 i u) = (Finset.univ : Finset (Fin 1024)).inf fun j => k0_pay9 x0 x1 v8 (ix2 i j) := by
  show shapeCast S4096x1 (multiReduction (F := Ideal) .minimumf [1] S4096 (k0_pay9 x0 x1 v8) 0x7F800000#32
      reduces_S4096x1024_S4096 (.inl rfl) rfl) shapeCasts_S4096_S4096x1 (ix2 i u) = _
  refine (Cert.LibKeepdims.shapeCast_a_a1_apply _ _ i u).trans ?_
  refine (Cert.LibMinReduce.rowMin_apply (k0_pay9 x0 x1 v8) _ _ _ _ i).trans ?_
  rw [Cert.Chamfer.ofBits_inf]
  rfl

/-- The second sum after the tile: what it held plus, over the tile's target points, the infimum along the column
    (the nearest reconstructed point). -/
theorem pay10_apply (x0 : Vec Ideal S1x4096x3 .f32) (x1 : Vec Ideal S1x1024x3 .f32) (v8 : Vec Ideal S4096x1 .f32)
    (v23 : Vec Ideal S1x1 .f32) (u v : Fin 1) :
    k0_pay10 x0 x1 v8 v23 (ix2 u v)
      = v23 (ix2 u v) + ∑ j : Fin 1024, (Finset.univ : Finset (Fin 4096)).inf fun i => k0_pay9 x0 x1 v8 (ix2 i j) := by
  -- the infimum along column `c`
  have hcol : ∀ c : Fin 1024, multiReduction (F := Ideal) .minimumf [0] S1024 (k0_pay9 x0 x1 v8) 0x7F800000#32
        reduces_S4096x1024_S1024 (.inl rfl) rfl (ix1 c)
      = (Finset.univ : Finset (Fin 4096)).inf fun i => k0_pay9 x0 x1 v8 (ix2 i c) := fun c => by
    refine (Cert.LibMinReduce.colMin_apply (k0_pay9 x0 x1 v8) _ _ _ _ c).trans ?_
    rw [Cert.Chamfer.ofBits_inf]
    rfl
  show shapeCast S1x1 (addf v23 (shapeCast S1x1 (multiReduction (F := Ideal) .add [1] S1
      (shapeCast S1x1024 (multiReduction (F := Ideal) .minimumf [0] S1024 (k0_pay9 x0 x1 v8) 0x7F800000#32
        reduces_S4096x1024_S1024 (.inl rfl) rfl) shapeCasts_S1024_S1x1024)
      0x00000000#32 reduces_S1x1024_S1 (.inl rfl) rfl) shapeCasts_S1_S1x1)) shapeCasts_S1x1_S1x1 (ix2 u v) = _
  refine (congrFun (shapeCast_self _ shapeCasts_S1x1_S1x1) (ix2 u v)).trans ?_
  show v23 (ix2 u v) + shapeCast S1x1 _ shapeCasts_S1_S1x1 (ix2 u v) = _
  refine congrArg (v23 (ix2 u v) + ·) ?_
  refine (Cert.LibKeepdims.shapeCast_a_a1_apply _ _ u v).trans ?_
  refine (Cert.LibRowReduce.rowSum_apply _ _ _ _ _ u).trans ?_
  refine Finset.sum_congr rfl fun c _ => ?_
  refine (shapeCast_a_1a_apply _ _ u c).trans ?_
  exact hcol c

end Cert.KernelIdeal.PayIdx

end
-- ==== Proof.Chain.lean ====
/-
  What the kernel's carried buffers hold after each grid point, in closed form.
  The grid visits, for each batch element `b`, the four tiles of 1024 target points in order. Write `kd b i j` for
  the clamped expanded squared distance |r_i|² − 2 r_i·g_j + |g_j|² of reconstructed point `i` and target point `j`.
  After the tiles before tile `k`: the norm column holds |r_i|², the running row minimum holds the infimum of
  `kd b i j` over the target points `j` of those tiles, and the second sum holds, summed over those target points,
  the infimum over `i` of `kd b i j`. One more tile extends both by that tile's points. After the fourth tile the
  row minima are summed into the first sum and the two sums are laid in lanes 0 and 1 of the output row.
-/
import proofs.«127155_j6476810682605_2_alg».proof.Proof.Gen.KernelIdeal.Frame
import proofs.«127155_j6476810682605_2_alg».proof.Proof.Pieces
import proofs.«127155_j6476810682605_2_alg».proof.Proof.PayIdx
import proofs.«127155_j6476810682605_2_alg».proof.Proof.PayDist
import proofs.«127155_j6476810682605_2_alg».proof.Proof.Algebra
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.PayIdx Cert.Chamfer

/-! ## The pairwise quantities of a batch element, from the two whole arrays -/

section Pure

variable (R G : FVec Ideal ⟨3, ![4, 4096, 3]⟩ .f32)

/-- The squared norm of reconstructed point `i`. -/
def nrm (b : Fin 4) (i : Fin 4096) : EReal := ∑ d : Fin 3, R (ix3 b i d) * R (ix3 b i d)

/-- The clamped expanded squared distance of reconstructed point `i` and target point `j`. -/
def kd (b : Fin 4) (i j : Fin 4096) : EReal :=
  max (nrm R b i - ((2 : ℝ) : EReal) * (∑ d : Fin 3, R (ix3 b i d) * G (ix3 b j d))
        + ∑ d : Fin 3, G (ix3 b j d) * G (ix3 b j d)) 0

/-- Target point `j`'s distance to the nearest reconstructed point. -/
def colInf (b : Fin 4) (j : Fin 4096) : EReal := (Finset.univ : Finset (Fin 4096)).inf fun i => kd R G b i j

/-- What the second sum, the running row minimum and the norm column hold once the tiles before tile `k` are done. -/
structure St (b : Fin 4) (k : ℕ) (s2 : Vec Ideal S1x1 .f32) (rm rq : Vec Ideal S4096x1 .f32) : Prop where
  rq_eq : ∀ (i : Fin 4096) (u : Fin 1), rq (ix2 i u) = nrm R b i
  rm_eq : ∀ (i : Fin 4096) (u : Fin 1), rm (ix2 i u) = (below k).inf fun j => kd R G b i j
  s2_eq : ∀ (u v : Fin 1), s2 (ix2 u v) = ∑ j ∈ below k, colInf R G b j

/-- An entry of the body's distance matrix is `kd` at the tile's point. -/
theorem pay9_kd (b : Fin 4) (k : ℕ) (hk : k < 4) (x0 : Vec Ideal S1x4096x3 .f32) (x1 : Vec Ideal S1x1024x3 .f32)
    (rq : Vec Ideal S4096x1 .f32)
    (h0 : ∀ (u : Fin 1) (i : Fin 4096) (d : Fin 3), x0 (ix3 u i d) = R (ix3 b i d))
    (h1 : ∀ (u : Fin 1) (j : Fin 1024) (d : Fin 3), x1 (ix3 u j d) = G (ix3 b (tileIdx k hk j) d))
    (hr : ∀ (i : Fin 4096) (u : Fin 1), rq (ix2 i u) = nrm R b i) (i : Fin 4096) (j : Fin 1024) :
    k0_pay9 x0 x1 rq (ix2 i j) = kd R G b i (tileIdx k hk j) := by
  rw [pay9_apply, hr i 0]
  unfold kd
  simp only [h0, h1]

/-- Before the first tile: the sum reset to zero, the row minimum to +∞ (an empty infimum), the norms stored. -/
theorem first (b : Fin 4) (x0 : Vec Ideal S1x4096x3 .f32)
    (h0 : ∀ (u : Fin 1) (i : Fin 4096) (d : Fin 3), x0 (ix3 u i d) = R (ix3 b i d)) :
    St R G b 0 (k0_pay6 (F := Ideal)) (k0_pay7 (F := Ideal)) (k0_pay8 x0) where
  rq_eq i u := by rw [pay8_apply]; unfold nrm; simp only [h0]
  rm_eq i u := by rw [pay7_apply, below_zero, Finset.inf_empty]
  s2_eq u v := by rw [pay6_apply, below_zero, Finset.sum_empty]

/-- One tile more. -/
theorem step (b : Fin 4) (k : ℕ) (hk : k < 4) (x0 : Vec Ideal S1x4096x3 .f32) (x1 : Vec Ideal S1x1024x3 .f32)
    (h0 : ∀ (u : Fin 1) (i : Fin 4096) (d : Fin 3), x0 (ix3 u i d) = R (ix3 b i d))
    (h1 : ∀ (u : Fin 1) (j : Fin 1024) (d : Fin 3), x1 (ix3 u j d) = G (ix3 b (tileIdx k hk j) d))
    (s2 : Vec Ideal S1x1 .f32) (rm rq : Vec Ideal S4096x1 .f32) (h : St R G b k s2 rm rq) :
    St R G b (k + 1) (k0_pay10 x0 x1 rq s2) (k0_pay1 (k0_pay11 x0 x1 rq) rm) rq where
  rq_eq := h.rq_eq
  rm_eq i u := by
    rw [pay1_apply, h.rm_eq, pay11_apply]
    simp only [pay9_kd R G b k hk x0 x1 rq h0 h1 h.rq_eq]
    exact inf_below_succ (fun j => kd R G b i j) k hk
  s2_eq u v := by
    rw [pay10_apply, h.s2_eq]
    simp only [pay9_kd R G b k hk x0 x1 rq h0 h1 h.rq_eq]
    exact sum_below_succ (fun j => colInf R G b j) k hk

/-- Lane 0 of the output row: the reconstructed points' distances to their nearest targets, summed. -/
def out1 (b : Fin 4) : EReal := 0 + ∑ i : Fin 4096, (below 4).inf fun j => kd R G b i j

/-- Lane 1: the targets' distances to their nearest reconstructed points, summed. -/
def out2 (b : Fin 4) : EReal := ∑ j ∈ below 4, colInf R G b j

/-- The output row of batch element `b`. -/
def outRow (b : Fin 4) (l : Fin 128) : EReal :=
  if l.val = 0 then out1 R G b else if l.val = 1 then out2 R G b else 0

/-- After the fourth tile the output row is `outRow`. -/
theorem last (b : Fin 4) (s1 s2 : Vec Ideal S1x1 .f32) (rm rq : Vec Ideal S4096x1 .f32) (h : St R G b 4 s2 rm rq)
    (h1 : ∀ u v : Fin 1, s1 (ix2 u v) = 0) (u v : Fin 1) (l : Fin 128) :
    k0_pay3 (k0_pay2 s1 rm) s2 (ix3 u v l) = outRow R G b l := by
  rw [pay3_apply, pay2_apply, h1, h.s2_eq]
  simp only [h.rm_eq]
  rfl

end Pure

/-! ## The blocks the windows stage -/

variable (m : (ℓ : Loc nD τ sig) → Buf (Elt Ideal) ℓ)

/-- The printed index maps over the grid: point `t` is tile `t mod 4` of batch element `t / 4`. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The first window's block at point `t` is batch element `t / 4` of the first array. -/
theorem x0_read (c : Dev nD) (t : Fin cfg0.N) (b : Fin 4) (hb : b.val = t.val / 4) (u : Fin 1) (i : Fin 4096) (d : Fin 3) :
    (iblk m c 0 t : Vec Ideal S1x4096x3 .f32) (ix3 u i d) = V m c main_arg0 (ix3 b i d) := by
  obtain ⟨e0, e1, e2, -⟩ := idx_facts t
  unfold iblk
  rw [View.read_apply]
  show V m c main_arg0 _ = V m c main_arg0 _
  refine congrArg _ (funext fun a => Fin.ext ?_)
  have hu : u.val = 0 := by omega
  match a with
  | ⟨0, _⟩ => show win0_0.index t (0 : Fin 3) * 1 + 1 * u.val = b.val; omega
  | ⟨1, _⟩ => show win0_0.index t (1 : Fin 3) * 4096 + 1 * i.val = i.val; omega
  | ⟨2, _⟩ => show win0_0.index t (2 : Fin 3) * 3 + 1 * d.val = d.val; omega

/-- The second window's block at point `t` is tile `t mod 4` of batch element `t / 4` of the second array. -/
theorem x1_read (c : Dev nD) (t : Fin cfg0.N) (b : Fin 4) (hb : b.val = t.val / 4) (k : ℕ) (hk : k < 4) (hkt : k = t.val % 4)
    (u : Fin 1) (j : Fin 1024) (d : Fin 3) :
    (iblk m c 1 t : Vec Ideal S1x1024x3 .f32) (ix3 u j d) = V m c main_arg1 (ix3 b (tileIdx k hk j) d) := by
  obtain ⟨-, -, -, e0, e1, e2, -⟩ := idx_facts t
  unfold iblk
  rw [View.read_apply]
  show V m c main_arg1 _ = V m c main_arg1 _
  refine congrArg _ (funext fun a => Fin.ext ?_)
  have hu : u.val = 0 := by omega
  match a with
  | ⟨0, _⟩ => show win0_1.index t (0 : Fin 3) * 1 + 1 * u.val = b.val; omega
  | ⟨1, _⟩ => show win0_1.index t (1 : Fin 3) * 1024 + 1 * j.val = 1024 * k + j.val; omega
  | ⟨2, _⟩ => show win0_1.index t (2 : Fin 3) * 3 + 1 * d.val = d.val; omega

/-! ## The buffers after each point -/

/-- After point `n`, tile `k` of batch element `b`: the carried buffers are as after the tiles before `k + 1`; the first sum
    is still zero before the last tile; at the last tile the output row is written. -/
def Inv (c : Dev nD) (n : ℕ) (h : n < cfg0.N) (b : Fin 4) (k : ℕ) : Prop :=
  St (V m c main_arg0) (V m c main_arg1) b (k + 1) (outsAt0 m c n h).2.2.1 (outsAt0 m c n h).2.2.2.1 (outsAt0 m c n h).2.2.2.2
  ∧ (k ≠ 3 → ∀ u v : Fin 1, (outsAt0 m c n h).2.1 (ix2 u v) = 0)
  ∧ (k = 3 → ∀ (u v : Fin 1) (l : Fin 128),
      (outsAt0 m c n h).1 (ix3 u v l) = outRow (V m c main_arg0) (V m c main_arg1) b l)

/-- The first tile of a batch element. -/
theorem inv_A (c : Dev nD) (t : Fin cfg0.N) (h0 : t.val % 4 = 0) (b : Fin 4) (hb : b.val = t.val / 4) :
    Inv m c t.val t.isLt b 0 := by
  have h1 : ¬t.val % 4 = 3 := by omega
  have hx0 := x0_read m c t b hb
  have hx1 := x1_read m c t b hb 0 (by decide) (by omega)
  have st := step (V m c main_arg0) (V m c main_arg1) b 0 (by decide) (iblk m c 0 t) (iblk m c 1 t) hx0 hx1 _ _ _
    (first (V m c main_arg0) (V m c main_arg1) b (iblk m c 0 t) hx0)
  unfold Inv
  rw [outsAt0_A m c t h0 h1]
  dsimp only
  refine ⟨?_, ?_, ?_⟩
  · rw [Pieces.sum2_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t), Pieces.rowmin_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t), Pieces.rsq_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)]
    exact st
  · intro _ u v
    rw [Pieces.sum1_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t)]
    exact pay5_apply _
  · intro hk; exact absurd hk (by decide)

/-- A middle tile. -/
theorem inv_B (c : Dev nD) (t : Fin cfg0.N) (h0 : ¬t.val % 4 = 0) (h1 : ¬t.val % 4 = 3) (b : Fin 4) (hb : b.val = t.val / 4)
    (k : ℕ) (hk : k + 1 = t.val % 4)
    (ih : Inv m c (t.val - 1) (Nat.lt_of_le_of_lt (Nat.sub_le _ _) t.isLt) b k) :
    Inv m c t.val t.isLt b (k + 1) := by
  have hx0 := x0_read m c t b hb
  have hx1 := x1_read m c t b hb (k + 1) (by omega) hk
  have st := step (V m c main_arg0) (V m c main_arg1) b (k + 1) (by omega) (iblk m c 0 t) (iblk m c 1 t) hx0 hx1 _ _ _ ih.1
  unfold Inv
  rw [outsAt0_B m c t h0 h1]
  dsimp only
  refine ⟨?_, ?_, ?_⟩
  · rw [Pieces.sum2_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, Pieces.rowmin_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    unfold sout0_B_3
    exact st
  · intro _ u v
    unfold sout0_B_0
    exact ih.2.1 (by omega) u v
  · intro hk3; omega

/-- The last tile. -/
theorem inv_C (c : Dev nD) (t : Fin cfg0.N) (h0 : ¬t.val % 4 = 0) (h1 : t.val % 4 = 3) (b : Fin 4) (hb : b.val = t.val / 4)
    (ih : Inv m c (t.val - 1) (Nat.lt_of_le_of_lt (Nat.sub_le _ _) t.isLt) b 2) :
    Inv m c t.val t.isLt b 3 := by
  have hx0 := x0_read m c t b hb
  have hx1 := x1_read m c t b hb 3 (by decide) (by omega)
  have st := step (V m c main_arg0) (V m c main_arg1) b 3 (by decide) (iblk m c 0 t) (iblk m c 1 t) hx0 hx1 _ _ _ ih.1
  unfold Inv
  rw [outsAt0_C m c t h0 h1]
  dsimp only
  refine ⟨?_, ?_, ?_⟩
  · rw [Pieces.sum2_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, Pieces.rowmin_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    unfold sout0_C_3
    exact st
  · intro h; exact absurd rfl h
  · intro _ u v l
    rw [Pieces.out_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    exact last (V m c main_arg0) (V m c main_arg1) b _ _ _ _ st (ih.2.1 (by decide)) u v l

/-- At every point. -/
theorem inv (c : Dev nD) : ∀ (n : ℕ) (h : n < cfg0.N) (b : Fin 4) (k : ℕ), b.val = n / 4 → k = n % 4 → Inv m c n h b k
  | 0, h, b, k, hb, hk => by
    subst hk
    exact inv_A m c ⟨0, h⟩ rfl b hb
  | n + 1, h, b, k, hb, hk => by
    have hN : cfg0.N = 16 := N_0
    by_cases h0 : (n + 1) % 4 = 0
    · obtain rfl : k = 0 := by omega
      exact inv_A m c ⟨n + 1, h⟩ h0 b hb
    · have ih := inv c n (Nat.lt_of_succ_lt h) b (k - 1) (by omega) (by omega)
      by_cases h1 : (n + 1) % 4 = 3
      · obtain rfl : k = 3 := by omega
        exact inv_C m c ⟨n + 1, h⟩ h0 h1 b hb ih
      · obtain ⟨k', rfl⟩ : ∃ k', k = k' + 1 := ⟨k - 1, by omega⟩
        exact inv_B m c ⟨n + 1, h⟩ h0 h1 b hb k' (by omega) ih

end Cert.KernelIdeal.Chain

end
-- ==== Proof.Spec.lean ====
/-
  The chamfer loss of two batches of point clouds, as one function of the two arrays over the extended reals.
  For each of the 4 batch elements, 4096 reconstructed points `R b n` and 4096 target points `G b m` of ℝ³:
  the squared distance of every pair, each reconstructed point's distance to its nearest target and each
  target's distance to its nearest reconstructed point (infima over the other cloud), the two totals over all
  points of all batch elements, and the mean of the two means (each total over 16384 = 4 · 4096, the sum halved).
-/
import Idealize.ShloMosaic.PureOps.Ideal
import Idealize.ShloMosaic.Lib.ValueIdx

noncomputable section

namespace Cert.Chamfer

open Idealize.ShloMosaic Idealize.ShloMosaic.ValueIdx

/-- A batch of point clouds: 4 × 4096 points of three coordinates. -/
abbrev Cloud : Type := FVec Ideal ⟨3, ![4, 4096, 3]⟩ .f32

/-- The squared distance between reconstructed point `n` and target point `m` of batch element `b`:
    the sum over the three coordinates of the squared difference. -/
def sqd (R G : Cloud) (b : Fin 4) (n m : Fin 4096) : EReal :=
  ∑ d : Fin 3, (R (ix3 b n d) - G (ix3 b m d)) * (R (ix3 b n d) - G (ix3 b m d))

/-- The squared distance from reconstructed point `n` to the nearest target point. -/
def toTarget (R G : Cloud) (b : Fin 4) (n : Fin 4096) : EReal :=
  (Finset.univ : Finset (Fin 4096)).inf fun m => sqd R G b n m

/-- The squared distance from target point `m` to the nearest reconstructed point. -/
def toRecon (R G : Cloud) (b : Fin 4) (m : Fin 4096) : EReal :=
  (Finset.univ : Finset (Fin 4096)).inf fun n => sqd R G b n m

/-- The total over every reconstructed point of every batch element. -/
def sumToTarget (R G : Cloud) : EReal := ∑ b : Fin 4, ∑ n : Fin 4096, toTarget R G b n

/-- The total over every target point of every batch element. -/
def sumToRecon (R G : Cloud) : EReal := ∑ b : Fin 4, ∑ m : Fin 4096, toRecon R G b m

/-- Rank-zero arrays: one entry. -/
abbrev Sc : Shape := ⟨0, ![]⟩

/-- The mean of two means: each total divided by 16384, the two quotients added and the sum halved. Both
    programs end with exactly these operations on the same constants, so it is never opened. -/
def mean2 (s1 s2 : FVec Ideal Sc .f32) : FVec Ideal Sc .f32 :=
  Host.divf (addf (Host.divf s1 (constant (F := Ideal) Sc .f32 0x46800000#32))
      (Host.divf s2 (constant (F := Ideal) Sc .f32 0x46800000#32)))
    (constant (F := Ideal) Sc .f32 0x40000000#32)

/-- The chamfer loss. -/
def loss (R G : Cloud) : FVec Ideal Sc .f32 :=
  mean2 (fun _ => sumToTarget R G) (fun _ => sumToRecon R G)

end Cert.Chamfer

end
-- ==== Proof.KValue.lean ====
/-
  The idealized kernel's result. After the run the output array [4, 1, 128] holds, in row `b`, the two sums of batch
  element `b` in lanes 0 and 1 (each row is written back once, after the batch element's fourth tile, and the four
  rows tile the array). The lines after the kernel slice lanes 0 and 1, sum each over the four batch elements, and
  take the mean of the two means: the chamfer loss of the two arrays with the squared distance in its expanded,
  clamped form.
-/
import proofs.«127155_j6476810682605_2_alg».proof.Proof.Chain
import proofs.«127155_j6476810682605_2_alg».proof.Proof.Spec
import Idealize.ShloMosaic.Lib.Pipeline.Value
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Chain Cert.Chamfer

variable (m : (ℓ : Loc nD τ sig) → Buf (Elt Ideal) ℓ) (ρ : Dev nD → PrngReg)

/-- The output array after the run: row `b` is batch element `b`'s output row. -/
def Gout (c : Dev nD) : Buf (Elt Ideal) ((c : Thread nD τ).loc main_v0) := fun i =>
  outRow (V m c main_arg0) (V m c main_arg1) ⟨(i 0).val, (i 0).isLt⟩ ⟨(i 2).val, (i 2).isLt⟩

/-- What the last tile of a batch element writes back is that batch element's row of `Gout`. -/
theorem flushed_eq (c : Dev nD) (t : Fin cfg0.N) (hf : (cfg0.win 2).flush t = true) :
    (dats m 0 c).flushed 2 t = ((cfg0.win 2).blk t).view.read (Elt Ideal) (Gout m c) := by
  have h3 : t.val % 4 = 3 := (flush0_2 t).mp hf
  have hN : cfg0.N = 16 := N_0
  obtain ⟨-, -, -, -, -, -, e0, e1, e2⟩ := idx_facts t
  have hlt : t.val / 4 < 4 := by have := t.isLt; omega
  have hinv := (inv m c t.val t.isLt ⟨t.val / 4, hlt⟩ 3 rfl h3.symm).2.2 rfl
  show (cfg0.win 2).cut (grid0.coords t) ((dats m 0 c).after 2 t) = _
  rw [after0_2]
  funext j
  show (outsAt0 m c t.val t.isLt).1 j = Gout m c (((cfg0.win 2).blk t).view.emb j)
  have hj : j = ix3 (⟨(j 0).val, (j 0).isLt⟩ : Fin 1) (⟨(j 1).val, (j 1).isLt⟩ : Fin 1) (⟨(j 2).val, (j 2).isLt⟩ : Fin 128) := by
    funext a
    match a with
    | ⟨0, _⟩ => rfl
    | ⟨1, _⟩ => rfl
    | ⟨2, _⟩ => rfl
  refine (congrArg (outsAt0 m c t.val t.isLt).1 hj).trans ((hinv _ _ _).trans ?_)
  unfold Gout
  have h00 : (j 0).val < 1 := (j 0).isLt
  refine congrArg₂ (outRow (V m c main_arg0) (V m c main_arg1)) (Fin.ext ?_) (Fin.ext ?_)
  · show t.val / 4 = win0_2.index t (0 : Fin 3) * 1 + 1 * (j 0).val
    omega
  · show (j 2).val = win0_2.index t (2 : Fin 3) * 128 + 1 * (j 2).val
    omega

/-- An index of the output array is in point `t`'s block iff each coordinate is in the block's range. -/
theorem mem_blk (t : Fin cfg0.N) (i : S4x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0).slice (win0_2.rect t)).set ↔ _
  rw [View.set_slice_whole, Rect.mem_set_unit]
  exact Iff.rfl

/-- Row `b` of the output array is covered by the block of point `4 b + 3`. -/
theorem cover (i : S4x1x128.Idx) : ∃ t : Fin cfg0.N, (cfg0.win 2).flush t = true ∧ i ∈ ((cfg0.win 2).blk t).view.set := by
  have hN : cfg0.N = 16 := N_0
  have h0 : (i 0).val < 4 := (i 0).isLt
  have h1 : (i 1).val < 1 := (i 1).isLt
  have h2 : (i 2).val < 128 := (i 2).isLt
  let t : Fin cfg0.N := ⟨4 * (i 0).val + 3, by omega⟩
  obtain ⟨-, -, -, -, -, -, e0, e1, e2⟩ := idx_facts t
  have ht : t.val = 4 * (i 0).val + 3 := rfl
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- The output array after the run. -/
theorem final (c : Dev nD) : (dats m 0 c).arrAt 2 cfg0.N = Gout m c :=
  (dats m 0 c).arrAt_eq_of_cover 2 (Gout m c) (flushed_eq m c) cover

end Cert.KernelIdeal.KValue

end
-- ==== Proof.KRun.lean ====
/-
  The idealized kernel's run, read: the result is the mean of the two means of the per-batch-element sums the output
  array holds in lanes 0 and 1. The lines after the kernel slice lane 0 and lane 1 of the [4, 1, 128] output array,
  recast each [4, 1, 1] slice as a vector of 4, sum it from zero, divide by 16384, add and halve.
-/
import proofs.«127155_j6476810682605_2_alg».proof.Proof.KValue
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Chain Cert.Chamfer

variable (m : (ℓ : Loc nD τ sig) → Buf (Elt Ideal) ℓ) (ρ : Dev nD → PrngReg)

/-- The kernel's two totals over the four batch elements, and its result. -/
def total1 (R G : FVec Ideal ⟨3, ![4, 4096, 3]⟩ .f32) : EReal := ∑ b : Fin 4, out1 R G b
def total2 (R G : FVec Ideal ⟨3, ![4, 4096, 3]⟩ .f32) : EReal := ∑ b : Fin 4, out2 R G b
def result (R G : FVec Ideal ⟨3, ![4, 4096, 3]⟩ .f32) : FVec Ideal Sc .f32 :=
  mean2 (fun _ => total1 R G) (fun _ => total2 R G)

/-- The indices of a vector of four are its four coordinates. -/
def idx4 : Fin 4 ≃ (⟨1, ![4]⟩ : Shape).Idx where
  toFun b := ix1 b
  invFun i := ⟨(i 0).val, (i 0).isLt⟩
  left_inv b := rfl
  right_inv i := by
    funext d
    match d with
    | ⟨0, _⟩ => rfl

/-- Lane `l` of the output array, sliced, recast as a vector of four and summed from zero, is the sum over the batch
    elements of that lane of their rows. -/
theorem laneSum (A : FVec Ideal S4x1x128 .f32) (l : ℕ) (hl : l < 128) (hs : S4x1x128.Slices ![0, 0, l] S4x1x1) (i0 : S_.Idx) :
    Host.reduceAdd (shapeCast S4 (extractStridedSlice S4x1x1 ![0, 0, l] A hs) shapeCasts_S4x1x1_S4)
        (constant (F := Ideal) S_ .f32 0x00000000#32) reducesTo_S4_S_d0 h_S_ i0
      = ∑ b : Fin 4, A (ix3 b (0 : Fin 1) (⟨l, hl⟩ : Fin 128)) := by
  simp only [Host.reduceAdd, Ideal.hostReduceAdd_def]
  rw [Ideal.hostReduceAdd_total reducesTo_S4_S_d0 (fun b => b.elim0)]
  show Ideal.ofBits .f32 0x00000000#32 + _ = _
  rw [Ideal.ofBits_zero_f32, zero_add]
  refine (Equiv.sum_comp idx4 _).symm.trans ?_
  refine Finset.sum_congr rfl fun b _ => ?_
  show shapeCast S4 (extractStridedSlice S4x1x1 ![0, 0, l] A hs) shapeCasts_S4x1x1_S4 (ix1 b) = _
  refine (shapeCast_apply _ shapeCasts_S4x1x1_S4 _ (ix3 (⟨b.val, b.isLt⟩ : Fin 4) (0 : Fin 1) (0 : Fin 1)) ?_).trans ?_
  · rw [Shape.rowMajor_val_three, Shape.rowMajor_val_one]
    show (b.val * 1 + 0) * 1 + 0 = b.val
    omega
  · refine extractStridedSlice_apply _ A hs _ _ fun a => ?_
    match a with
    | ⟨0, _⟩ => show b.val = 0 + b.val; omega
    | ⟨1, _⟩ => show 0 = 0 + 0; rfl
    | ⟨2, _⟩ => show l = l + 0; rfl

/-- The result buffer after the lines that follow the kernel. -/
theorem tail_eq (c : Dev nD) :
    Pipeline.afterTail₀ cfgs (dats m) 0 (V0 m) [hostOps1] c main_v10 = result (V m c main_arg0) (V m c main_arg1) := by
  unfold Pipeline.afterTail₀
  show StableHlo.after hostOps1 _ (Proc.devRef .tc main_v10) = _
  after_results
  rw [(Pipeline.withArrays_arr spec0 launch0.win.arr_inj c _ _ 2).trans (final m c)]
  unfold result
  show mean2 _ _ = mean2 _ _
  refine congrArg₂ mean2 (funext fun i0 => ?_) (funext fun i0 => ?_)
  · refine (laneSum (Gout m c) 0 (by decide) _ i0).trans ?_
    unfold total1
    refine Finset.sum_congr rfl fun b _ => ?_
    show outRow _ _ _ _ = _
    unfold outRow
    rfl
  · refine (laneSum (Gout m c) 1 (by decide) _ i0).trans ?_
    unfold total2
    refine Finset.sum_congr rfl fun b _ => ?_
    show outRow _ _ _ _ = _
    unfold outRow
    rfl

/-- The run of the idealized kernel: it terminates with the result buffer at `result` of the two argument arrays,
    which end unchanged. -/
theorem run : θ_run defs (onTc (τ := τ) (main (F := Ideal))) ⟨m, fun _ => 0, ρ⟩ fun r => ∀ c : Dev nD,
      r.2.mem ((c.tc : Thread nD τ).loc main_v10) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.Bridge.lean ====
/-
  For arrays of real numbers the kernel's result is the chamfer loss. The kernel forms each squared distance as
  |r|² − 2 r·g + |g|² clamped at zero; over the reals this is the sum of the squared coordinate differences, which is
  not negative. Distributing the product over the differences is where finiteness is needed: it fails at infinities.
  With the distances equal, the infima over all 4096 points (the tiles before tile 4 are all the points) and the sums
  agree term by term.
-/
import proofs.«127155_j6476810682605_2_alg».proof.Proof.KRun
import proofs.«127155_j6476810682605_2_alg».proof.Proof.Spec
import proofs.«127155_j6476810682605_2_alg».proof.Proof.Algebra

noncomputable section

open Idealize.ShloMosaic Idealize.ShloMosaic.ValueIdx

namespace Cert.Chamfer

open Cert.KernelIdeal.Chain Cert.KernelIdeal.KValue

variable (R G : Cloud) (hR : ∀ i, ∃ r : ℝ, R i = (r : EReal)) (hG : ∀ i, ∃ r : ℝ, G i = (r : EReal))

include hR hG

/-- The clamped expanded form is the squared distance. -/
theorem kd_eq_sqd (b : Fin 4) (i j : Fin 4096) : kd R G b i j = sqd R G b i j := by
  choose r hr using hR
  choose g hg using hG
  unfold kd nrm sqd
  simp only [hr, hg]
  exact sqd_expand (fun d => r (ix3 b i d)) (fun d => g (ix3 b j d))

/-- The kernel's first total is the reconstructed points' total distance to their nearest targets. -/
theorem total1_eq : total1 R G = sumToTarget R G := by
  unfold total1 sumToTarget
  refine Finset.sum_congr rfl fun b _ => ?_
  unfold out1
  rw [zero_add, below_four]
  refine Finset.sum_congr rfl fun i _ => ?_
  unfold toTarget
  exact congrArg (Finset.univ : Finset (Fin 4096)).inf (funext fun j => kd_eq_sqd R G hR hG b i j)

/-- The kernel's second total is the targets' total distance to their nearest reconstructed points. -/
theorem total2_eq : total2 R G = sumToRecon R G := by
  unfold total2 sumToRecon
  refine Finset.sum_congr rfl fun b _ => ?_
  unfold out2
  rw [below_four]
  refine Finset.sum_congr rfl fun j _ => ?_
  unfold colInf toRecon
  exact congrArg (Finset.univ : Finset (Fin 4096)).inf (funext fun i => kd_eq_sqd R G hR hG b i j)

/-- So the kernel's result is the loss. -/
theorem result_eq : result R G = loss R G := by
  unfold result loss
  rw [total1_eq R G hR hG, total2_eq R G hR hG]

end Cert.Chamfer

end
-- ==== Proof.RefValue.lean ====
/-
  The reference program's result is the chamfer loss of the specification: its squared pairwise distances are the
  specification's, its two minimum-reductions are the two infima, its two total sums are the two totals, and its
  last four operations are the mean of the two means.
-/
import proofs.«127155_j6476810682605_2_alg».proof.Proof.Gen.ReferenceIdeal.Read
import proofs.«127155_j6476810682605_2_alg».proof.Proof.Spec
import Idealize.ShloMosaic.Lib.ValueIdx
import Idealize.ShloMosaic.PureOps.Ideal.Laws

noncomputable section

namespace Cert.Chamfer.Ref

open Idealize.ShloMosaic Idealize.ShloMosaic.ValueIdx Cert.ReferenceIdeal Cert.ReferenceIdeal.Read
  Cert.ReferenceIdeal.Gen

/-- One coordinate's squared difference: the two broadcasts read the reconstructed point `n` and the target point
    `m` of batch element `b` at coordinate `d`. -/
theorem v5_read (x0 x1 : Cloud) (b : Fin 4) (n m : Fin 4096) (d : Fin 3) :
    val_main_v5 (F := Ideal) x0 x1 (idx_main_v6 (ix3 b n m) d)
      = (x0 (ix3 b n d) - x1 (ix3 b m d)) * (x0 (ix3 b n d) - x1 (ix3 b m d)) := by
  have e0 : idx_main_v0 (idx_main_v2 (idx_main_v6 (ix3 b n m) d)) = ix3 b n d :=
    funext fun a => Fin.ext (by match a with | ⟨0, _⟩ => rfl | ⟨1, _⟩ => rfl | ⟨2, _⟩ => rfl)
  have e1 : idx_main_v1 (idx_main_v3 (idx_main_v6 (ix3 b n m) d)) = ix3 b m d :=
    funext fun a => Fin.ext (by match a with | ⟨0, _⟩ => rfl | ⟨1, _⟩ => rfl | ⟨2, _⟩ => rfl)
  rw [val_main_v5_apply, val_main_v4_apply, val_main_v2_apply, val_main_v3_apply, val_main_v0_apply,
    val_main_v1_apply, e0, e1]
  rfl

/-- The sum over the three coordinates is the squared distance of the pair. -/
theorem v6_read (x0 x1 : Cloud) (b : Fin 4) (n m : Fin 4096) :
    val_main_v6 (F := Ideal) x0 x1 (ix3 b n m) = sqd x0 x1 b n m := by
  rw [val_main_v6_apply, val_main_cst_apply]
  show Ideal.ofBits .f32 0x00000000#32 + _ = _
  rw [Ideal.ofBits_zero_f32, zero_add]
  unfold sqd
  exact Finset.sum_congr rfl fun d _ => v5_read x0 x1 b n m d

/-- The minimum-reduction's initial word is the top extended real. -/
theorem inf_word : Ideal.ofBits .f32 0x7F800000#32 = (⊤ : EReal) := by simp [Ideal.ofBits, Ideal.ieee]

/-- The minimum over the target axis is the distance to the nearest target point. -/
theorem v7_read (x0 x1 : Cloud) (b : Fin 4) (n : Fin 4096) :
    val_main_v7 (F := Ideal) x0 x1 (ix2 b n) = toTarget x0 x1 b n := by
  have h : S4x4096x4096.Reduces [2] S4x4096 := by decide
  have hl : ∀ m : Fin 4096, h.lift (ix2 b n) m = ix3 b n m := fun m =>
    funext fun a => Fin.ext (by match a with | ⟨0, _⟩ => rfl | ⟨1, _⟩ => rfl | ⟨2, _⟩ => rfl)
  have hf : (val_main_v6 (F := Ideal) x0 x1 ∘ h.lift (ix2 b n)) = fun m : Fin 4096 => sqd x0 x1 b n m :=
    funext fun m : Fin 4096 => (congrArg (val_main_v6 (F := Ideal) x0 x1) (hl m)).trans (v6_read x0 x1 b n m)
  unfold val_main_v7
  rw [Host.reduce_eq_fold_single FloatOps.minimumf _ _ reducesTo_S4x4096x4096_S4x4096_d2 h h_S_ (ix2 b n), hf,
    val_main_cst_0_apply]
  show Finset.fold min (Ideal.ofBits .f32 0x7F800000#32) _ _ = _
  rw [inf_word]
  rfl

/-- The minimum over the reconstructed axis is the distance to the nearest reconstructed point. -/
theorem v8_read (x0 x1 : Cloud) (b : Fin 4) (m : Fin 4096) :
    val_main_v8 (F := Ideal) x0 x1 (ix2 b m) = toRecon x0 x1 b m := by
  have h : S4x4096x4096.Reduces [1] S4x4096 := by decide
  have hl : ∀ n : Fin 4096, h.lift (ix2 b m) n = ix3 b n m := fun n =>
    funext fun a => Fin.ext (by match a with | ⟨0, _⟩ => rfl | ⟨1, _⟩ => rfl | ⟨2, _⟩ => rfl)
  have hf : (val_main_v6 (F := Ideal) x0 x1 ∘ h.lift (ix2 b m)) = fun n : Fin 4096 => sqd x0 x1 b n m :=
    funext fun n : Fin 4096 => (congrArg (val_main_v6 (F := Ideal) x0 x1) (hl n)).trans (v6_read x0 x1 b n m)
  unfold val_main_v8
  rw [Host.reduce_eq_fold_single FloatOps.minimumf _ _ reducesTo_S4x4096x4096_S4x4096_d1 h h_S_ (ix2 b m), hf,
    val_main_cst_1_apply]
  show Finset.fold min (Ideal.ofBits .f32 0x7F800000#32) _ _ = _
  rw [inf_word]
  rfl

/-- The first total: zero plus the sum over every reconstructed point of every batch element. -/
theorem v9_read (x0 x1 : Cloud) : val_main_v9 (F := Ideal) x0 x1 = fun _ => sumToTarget x0 x1 := by
  funext i
  rw [val_main_v9_apply, val_main_cst_2_apply]
  show Ideal.ofBits .f32 0x00000000#32 + _ = _
  rw [Ideal.ofBits_zero_f32, zero_add, sum_idx2]
  unfold sumToTarget
  exact Finset.sum_congr rfl fun b _ => Finset.sum_congr rfl fun n _ => v7_read x0 x1 b n

/-- The second total: zero plus the sum over every target point of every batch element. -/
theorem v11_read (x0 x1 : Cloud) : val_main_v11 (F := Ideal) x0 x1 = fun _ => sumToRecon x0 x1 := by
  funext i
  rw [val_main_v11_apply, val_main_cst_4_apply]
  show Ideal.ofBits .f32 0x00000000#32 + _ = _
  rw [Ideal.ofBits_zero_f32, zero_add, sum_idx2]
  unfold sumToRecon
  exact Finset.sum_congr rfl fun b _ => Finset.sum_congr rfl fun m _ => v8_read x0 x1 b m

/-- The reference's result is the chamfer loss. -/
theorem ref_eq (x0 x1 : Cert.Chamfer.Cloud) :
    Cert.ReferenceIdeal.Read.val_main_v14 (F := Ideal) x0 x1 = Cert.Chamfer.loss x0 x1 := by
  unfold val_main_v14 val_main_v13 val_main_v12 val_main_v10 loss mean2
  rw [v9_read, v11_read]
  rfl

end Cert.Chamfer.Ref

end
-- ==== Proof.Finite.lean ====
/-
  Under the precondition every entry of the two clouds is a real number. The precondition is the conjunction of
  two statements "every entry's absolute value is below +∞", one per cloud, each the `and` of the 4 · 4096 · 3
  entrywise comparisons. When the conjunction is 1 each `and` is 1, so each comparison is 1; and an extended real
  `a` with `max a (-a) < ⊤` is neither `⊥` (then `-a = ⊤`) nor `⊤`, hence is the coercion of a real.
-/
import proofs.«127155_j6476810682605_2_alg».proof.Pre_finite_inputs
import proofs.«127155_j6476810682605_2_alg».proof.Proof.Spec
import Idealize.ShloMosaic.Lib.ReduceAll
import Idealize.ShloMosaic.Lib.ValueIdx
import Idealize.ShloMosaic.PureOps.Ideal.Laws

noncomputable section

namespace Cert.Chamfer

open Idealize.ShloMosaic Idealize.ShloMosaic.ValueIdx

/-- A rank-zero array has one index. -/
instance : Subsingleton Cert.Pre_finite_inputs.S_.Idx := ⟨fun a b => funext fun d => d.elim0⟩

/-- The one-bit word of a truth value is 1 exactly when the value is true. -/
theorem ofBool_eq_one (b : Bool) : BitVec.ofBool b = 1#1 ↔ b = true := by cases b <;> decide

/-- An extended real whose absolute value `max a (-a)` is below `+∞` is a real number. -/
theorem real_of_abs_lt (a : EReal)
    (h : Ideal.cmp .olt (max a (-a)) (Ideal.ofBits .f32 0x7F800000#32) = 1#1) : ∃ r : ℝ, a = (r : EReal) := by
  have htop : Ideal.ofBits .f32 0x7F800000#32 = (⊤ : EReal) := by simp [Ideal.ofBits, Ideal.ieee]
  rw [htop] at h
  unfold Ideal.cmp at h
  rw [ofBool_eq_one] at h
  simp only [decide_eq_true_eq] at h
  induction a using EReal.rec with
  | bot => simp at h
  | top => simp at h
  | coe r => exact ⟨r, rfl⟩

/-- Under the precondition every entry of both clouds is a real number. -/
theorem real_of_pre [Cert.Pre_finite_inputs.Facts] (x y : Cert.Chamfer.Cloud)
    (h : Cert.Pre_finite_inputs.fn (F := Ideal) x y = fun _ => 1#1) :
    (∀ i, ∃ r : ℝ, x i = (r : EReal)) ∧ (∀ i, ∃ r : ℝ, y i = (r : EReal)) := by
  -- the predicate's one entry: the `and` of the two clouds' "all entries finite"
  have e := congrFun h ValueIdx.ix0
  dsimp only [Cert.Pre_finite_inputs.fn] at e
  change IntOp.andi _ _ = 1#1 at e
  obtain ⟨hx, hy⟩ := IntOp.andi_eq_one.1 e
  constructor
  · intro i
    -- the `and` over all entries is 1, so the comparison at entry `i` is 1
    have hi := Host.reduce_andi_all _ _ _ _ ValueIdx.ix0 hx i
    exact real_of_abs_lt (x i) hi
  · intro i
    have hi := Host.reduce_andi_all _ _ _ _ ValueIdx.ix0 hy i
    exact real_of_abs_lt (y i) hi

end Cert.Chamfer

end
-- ==== Proof.lean ====
/-
  The chamfer loss computed by a tiled kernel against its direct jnp form, over the extended reals.
  Both programs take two batches of point clouds, [4, 4096, 3] each. The reference forms every pairwise squared
  distance as the sum of squared coordinate differences, takes the minimum over the other cloud in both directions,
  averages each over the 16384 points and halves the sum of the two averages. The kernel visits, per batch element,
  four tiles of 1024 target points; it forms each squared distance in the expanded form |r|² − 2 r·g + |g|² clamped at
  zero, keeps a running row minimum across the tiles and accumulates the column minima and, at the last tile, the
  row minima into two sums per batch element; the lines after it add the sums over the batch elements and take the
  same mean of means. For finite inputs the expanded form is the sum of squared differences (the one place the
  precondition is used), a minimum taken tile by tile is the minimum over all points, and sums may be regrouped, so
  the two results are one extended real. The frames are the generated ones; the ideal pass rewrote nothing.
-/
import proofs.«127155_j6476810682605_2_alg».proof.Defs
import proofs.«127155_j6476810682605_2_alg».proof.Proof.Gen.Kernel
import proofs.«127155_j6476810682605_2_alg».proof.Proof.Gen.Kernel.Frame
import proofs.«127155_j6476810682605_2_alg».proof.Proof.Gen.KernelIdeal
import proofs.«127155_j6476810682605_2_alg».proof.Proof.Gen.KernelIdeal.Frame
import proofs.«127155_j6476810682605_2_alg».proof.Proof.Gen.ReferenceIdeal
import proofs.«127155_j6476810682605_2_alg».proof.Proof.Gen.ReferenceIdeal.Run
import proofs.«127155_j6476810682605_2_alg».proof.Proof.Gen.ReferenceIdeal.Read
import proofs.«127155_j6476810682605_2_alg».proof.Proof.Gen.Pre_finite_inputs
import proofs.«127155_j6476810682605_2_alg».proof.Proof.KRun
import proofs.«127155_j6476810682605_2_alg».proof.Proof.Bridge
import proofs.«127155_j6476810682605_2_alg».proof.Proof.RefValue
import proofs.«127155_j6476810682605_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the chamfer loss of the kernel's argument arrays. -/
theorem algebraic : Cert.algebraic_KernelIdeal_ReferenceIdeal := by
  intro m ρ m' ρ' hpre hagree
  refine ⟨fun c => Cert.Chamfer.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Cert.KernelIdeal.KValue.run m ρ)
    obtain ⟨hR, hG⟩ := Cert.Chamfer.real_of_pre _ _ (hpre c)
    exact Cert.Chamfer.result_eq _ _ hR hG
  · refine (θ_run Cert.ReferenceIdeal.defs _ _).mono (fun _ h c => ⟨?_, (h c).2⟩)
      (Cert.ReferenceIdeal.Value.run (F := Ideal) m' ρ')
    rw [(h c).1, Cert.ReferenceIdeal.Read.val_main_v14_eq, (hagree c).1, (hagree c).2]
    exact Cert.Chamfer.Ref.ref_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
